-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x256 : Shape := ⟨2, ![96, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x256 : S_.BroadcastsInDim S96x256 (![] : Fin 0 → Fin S96x256.rank)
  reducesTo_S96x256_S_d0_1 : S96x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_arg6 : FVec F S256x128 .f32) (main_v13 : IVec S_ 1) (main_v16 : IVec S96x256 1) : IVec S_ 1 :=
  let main_c_5 : IVec S_ 1 := constantI S_ 1 1#1
  let main_v17 : IVec S_ 1 := (fun x v => Host.reduce IntOp.andi x v reducesTo_S96x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x96 .f32) (main_arg1 : FVec F S96x256 .f32) (main_arg2 : FVec F S256 .f32) (main_arg3 : FVec F S96x256 .f32) (main_arg4 : FVec F S256x128 .f32) (main_arg5 : FVec F S128 .f32) (main_arg6 : FVec F S256x128 .f32) (main_arg7 : IVec S2x800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x256 .f32 := Host.absf main_arg1
  let main_cst_0 : FVec F S_ .f32 := constant S_ .f32 0x7F800000#32
  let main_v5 : FVec F S96x256 .f32 := broadcastInDim S96x256 ![] bcast_S_S96x256 main_cst_0
  let main_v6 : IVec S96x256 1 := cmpf .olt main_v4 main_v5
  let main_c_1 : IVec S_ 1 := constantI S_ 1 1#1
  let main_v7 : IVec S_ 1 := (fun x v => Host.reduce IntOp.andi x v reducesTo_S96x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S96x256 .f32 := Host.absf main_arg3
  let main_cst_4 : FVec F S_ .f32 := constant S_ .f32 0x7F800000#32
  let main_v15 : FVec F S96x256 .f32 := broadcastInDim S96x256 ![] bcast_S_S96x256 main_cst_4
  let main_v16 : IVec S96x256 1 := cmpf .olt main_v14 main_v15
  fn_part1 (F := F) main_arg4 main_arg5 main_arg6 main_v13 main_v16
-- ==== Kernel.lean ====
abbrev S50000x96 : Shape := ⟨2, ![50000, 96]⟩
abbrev S96x256 : Shape := ⟨2, ![96, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x256 : Shape := ⟨2, ![1, 256]⟩
abbrev S50000x256 : Shape := ⟨2, ![50000, 256]⟩
abbrev S2000x96 : Shape := ⟨2, ![2000, 96]⟩
abbrev S2000x256 : Shape := ⟨2, ![2000, 256]⟩
abbrev S800000x256 : Shape := ⟨2, ![800000, 256]⟩
abbrev S1x128 : Shape := ⟨2, ![1, 128]⟩
abbrev S50000x128 : Shape := ⟨2, ![50000, 128]⟩
abbrev S2000x128 : Shape := ⟨2, ![2000, 128]⟩

abbrev nBuf : Space → Nat
  | .hbm => 60
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S96x256, .f32⟩
  | .hbm, ⟨2, _⟩ => ⟨S256, .f32⟩
  | .hbm, ⟨3, _⟩ => ⟨S96x256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x96, .f32⟩
  | .hbm, ⟨33, _⟩ => ⟨S_, .f32⟩
  | .hbm, ⟨34, _⟩ => ⟨S50000x96, .f32⟩
  | .hbm, ⟨35, _⟩ => ⟨S800000x1, .i32⟩
  | .hbm, ⟨36, _⟩ => ⟨S50000x96, .f32⟩
  | .hbm, ⟨37, _⟩ => ⟨S50000x1, .f32⟩
  | .hbm, ⟨38, _⟩ => ⟨S50000x96, .f32⟩
  | .hbm, ⟨39, _⟩ => ⟨S50000x96, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x1, .f32⟩
  | .hbm, ⟨56, _⟩ => ⟨S50000x256, .f32⟩
  | .hbm, ⟨57, _⟩ => ⟨S50000x256, .f32⟩
  | .hbm, ⟨58, _⟩ => ⟨S1x128, .f32⟩
  | .hbm, ⟨59, _⟩ => ⟨S50000x128, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S96x256, .f32⟩
  | .local _ .vmem, ⟨5, _⟩ => ⟨S1x256, .f32⟩
  | .local _ .vmem, ⟨6, _⟩ => ⟨S96x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S256_S1x256 : S256.ShapeCasts S1x256
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S96x256_S96x256_0_0 : ∀ a, (![0, 0] : Fin 2 → Nat) a + S96x256.size a ≤ S96x256.size a
  h_S96x256 : 0 < S96x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x256_S2000x256_1_0_0_1_n_n_wf : DotDims.WF S2000x96 S96x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x256.size a ≤ S96x256.size a
  hwx0_2 : ∀ i : grid0.Coords, EltTy.bits .f32 = 32 ∨ (Rect.block (s := S96x256) S96x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x256.size a ≤ S96x256.size a
  hwx0_4 : ∀ i : grid0.Coords, EltTy.bits .f32 = 32 ∨ (Rect.block (s := S96x256) S96x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x256_S2000x256_1_0_0_1_n_n : DotDims S2000x96 S96x256 S2000x256 where
  lhsContracting := [1]
  rhsContracting := [0]
  lhsNonContracting := [0]
  rhsNonContracting := [1]
  lhsBatch := []
  rhsBatch := []
  wf := dot_S2000x96_S96x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S96x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S96x256 : Shape := ⟨2, ![96, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x256, .f32⟩
  | .hbm, ⟨2, _⟩ => ⟨S256, .f32⟩
  | .hbm, ⟨3, _⟩ => ⟨S96x256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x256_S50000x256_1_0_0_1_n_n_wf : DotDims.WF S50000x96 S96x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
import proofs.«114954_j10299331576571_1_alg».proof.Proof.Gen.KernelIdeal.Frame

/-!
# The idealized kernel's run with its result named

The program is two pipelined kernel regions among two stretches of host operations. Its generated frame follows the
buffer contents through the four segments: from the launch memory, after the first stretch, after the first region's
write-backs, after the second stretch, after the second region's write-backs (`Gen.W4`). Every weakly fair execution
terminates with every unscoped buffer at those last contents; read at the result buffer and at the eight argument
buffers this is the run below: the result ends at `Gen.W4` of its buffer, the arguments end as launched.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last region's write-backs leave and the eight arguments as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibSageLayer.lean ====
import Idealize.ShloMosaic.Lib.IdealHost
import Idealize.ShloMosaic.Lib.Pipeline.Value
import Idealize.ShloMosaic.Lib.ValueIdx
import Idealize.ShloMosaic.Lib.ValueLayout
import Idealize.ShloMosaic.Lib.KernelVsHost
import proofs.«114954_j10299331576571_1_alg».proof.Proof.LibPlainProduct

/-!
# One graph-convolution layer over the extended reals, in the host's spelling and in a kernel tile's spelling

A layer takes, for every node `r`, the aggregated neighbour features `a r` and the node's own features `x r` (rows of
`k` entries), two `k × w` weight matrices and a bias of `w` entries, and returns the row
`(∑ c, a r c * wl c j  +  b j)  +  ∑ c, x r c * wr c j`; the hidden layer then takes the maximum with a constant.

* `lin`, `hidden`: that function of the whole arrays, index by index.
* `host_lin`: the host's two `dot_general`s, its bias laid along the rows by two broadcasts, and its two additions
  compute `lin`; `host_hidden`: followed by the maximum with a broadcast scalar they compute `hidden`.
* `tile_lin_at`: a kernel's two matrix products into a zero accumulator on a tile of rows, with the bias row broadcast
  down the tile, read at an entry of the tile.
* `mul_recip_eq_div`: a sum of messages multiplied by the reciprocal `1 / max(deg, 1)` of the clamped degree is the sum
  divided by the clamped degree, at every extended real: the clamped degree is at least one, so it is not zero, and off
  zero the quotient is the product with the inverse.
-/

noncomputable section

namespace SageLayer

open Idealize.ShloMosaic Idealize.ShloMosaic.ValueIdx

section Spec

variable {n k w : ℕ}

/-- Entry `(r, j)` of `(a · wl + b) + x · wr`. -/
def lin (a x : (⟨2, ![n, k]⟩ : Shape).Idx → EReal) (wl wr : (⟨2, ![k, w]⟩ : Shape).Idx → EReal) (b : Fin w → EReal) :
    (⟨2, ![n, w]⟩ : Shape).Idx → EReal :=
  fun i => ((∑ c : Fin k, a (ix2 (i 0 : Fin n) c) * wl (ix2 c (i 1 : Fin w))) + b (i 1 : Fin w))
    + ∑ c : Fin k, x (ix2 (i 0 : Fin n) c) * wr (ix2 c (i 1 : Fin w))

theorem lin_at (a x : (⟨2, ![n, k]⟩ : Shape).Idx → EReal) (wl wr : (⟨2, ![k, w]⟩ : Shape).Idx → EReal) (b : Fin w → EReal)
    (r : Fin n) (j : Fin w) :
    lin a x wl wr b (ix2 r j) = ((∑ c : Fin k, a (ix2 r c) * wl (ix2 c j)) + b j) + ∑ c : Fin k, x (ix2 r c) * wr (ix2 c j) := rfl

/-- The layer followed by the maximum with the constant `z`. -/
def hidden (z : EReal) (a x : (⟨2, ![n, k]⟩ : Shape).Idx → EReal) (wl wr : (⟨2, ![k, w]⟩ : Shape).Idx → EReal) (b : Fin w → EReal) :
    (⟨2, ![n, w]⟩ : Shape).Idx → EReal :=
  fun i => max (lin a x wl wr b i) z

theorem hidden_at (z : EReal) (a x : (⟨2, ![n, k]⟩ : Shape).Idx → EReal) (wl wr : (⟨2, ![k, w]⟩ : Shape).Idx → EReal) (b : Fin w → EReal)
    (r : Fin n) (j : Fin w) :
    hidden z a x wl wr b (ix2 r j)
      = max (((∑ c : Fin k, a (ix2 r c) * wl (ix2 c j)) + b j) + ∑ c : Fin k, x (ix2 r c) * wr (ix2 c j)) z := rfl

end Spec

section Host

variable {n k w : ℕ}

/-- A bias of `w` entries laid as one row and then along `n` rows reads, at `(r, j)`, its entry `j`. -/
theorem bias_rows_at (h1 : (⟨1, ![w]⟩ : Shape).BroadcastsInDim ⟨2, ![1, w]⟩ ![1])
    (h2 : (⟨2, ![1, w]⟩ : Shape).BroadcastsInDim ⟨2, ![n, w]⟩ ![0, 1]) (b : (⟨1, ![w]⟩ : Shape).Idx → EReal) (r : Fin n) (j : Fin w) :
    broadcastInDim ⟨2, ![n, w]⟩ ![0, 1] h2 (broadcastInDim ⟨2, ![1, w]⟩ ![1] h1 b) (ix2 r j) = b (ix1 j) := by
  rw [broadcastInDim_oneRow_apply]
  refine broadcastInDim_apply ![1] h1 b (ix2 (0 : Fin 1) j) (ix1 j) fun ax => ?_
  match ax with
  | ⟨0, _⟩ =>
    show j.val = if w = 1 then 0 else j.val
    split
    · have := j.isLt; omega
    · rfl

/-- The host's spelling of the layer is `lin`. -/
theorem host_lin (d : DotDims ⟨2, ![n, k]⟩ ⟨2, ![k, w]⟩ ⟨2, ![n, w]⟩) (hd : d = DotDims.plain n k w)
    (p₁ p₂ : Option ContractPrecision)
    (h1 : (⟨1, ![w]⟩ : Shape).BroadcastsInDim ⟨2, ![1, w]⟩ ![1])
    (h2 : (⟨2, ![1, w]⟩ : Shape).BroadcastsInDim ⟨2, ![n, w]⟩ ![0, 1])
    (a x : FVec Ideal ⟨2, ![n, k]⟩ .f32) (wl wr : FVec Ideal ⟨2, ![k, w]⟩ .f32) (b : FVec Ideal ⟨1, ![w]⟩ .f32) :
    addf (addf (Host.dotGeneral d p₁ a wl) (broadcastInDim ⟨2, ![n, w]⟩ ![0, 1] h2 (broadcastInDim ⟨2, ![1, w]⟩ ![1] h1 b)))
      (Host.dotGeneral d p₂ x wr) = lin a x wl wr (fun j => b (ix1 j)) := by
  funext i
  obtain ⟨r, j, rfl⟩ : ∃ (r : Fin n) (j : Fin w), i = ix2 r j := ⟨i 0, i 1, eq_ix2 i⟩
  rw [addf_apply, addf_apply, PlainProduct.dotGeneral_at d hd, PlainProduct.dotGeneral_at d hd, bias_rows_at, lin_at]

/-- The host's spelling of the hidden layer is `hidden` at the scalar's value. -/
theorem host_hidden (d : DotDims ⟨2, ![n, k]⟩ ⟨2, ![k, w]⟩ ⟨2, ![n, w]⟩) (hd : d = DotDims.plain n k w)
    (p₁ p₂ : Option ContractPrecision)
    (h1 : (⟨1, ![w]⟩ : Shape).BroadcastsInDim ⟨2, ![1, w]⟩ ![1])
    (h2 : (⟨2, ![1, w]⟩ : Shape).BroadcastsInDim ⟨2, ![n, w]⟩ ![0, 1])
    (h0 : (⟨0, ![]⟩ : Shape).BroadcastsInDim ⟨2, ![n, w]⟩ ![]) (zb : BitVec 32)
    (a x : FVec Ideal ⟨2, ![n, k]⟩ .f32) (wl wr : FVec Ideal ⟨2, ![k, w]⟩ .f32) (b : FVec Ideal ⟨1, ![w]⟩ .f32) :
    maximumf (addf (addf (Host.dotGeneral d p₁ a wl) (broadcastInDim ⟨2, ![n, w]⟩ ![0, 1] h2 (broadcastInDim ⟨2, ![1, w]⟩ ![1] h1 b)))
        (Host.dotGeneral d p₂ x wr))
      (broadcastInDim ⟨2, ![n, w]⟩ ![] h0 (constant (F := Ideal) ⟨0, ![]⟩ .f32 zb))
      = hidden (Ideal.ofBits .f32 zb) a x wl wr (fun j => b (ix1 j)) := by
  rw [host_lin d hd p₁ p₂ h1 h2]
  funext i
  rw [maximumf_apply, broadcastInDim_scalar_apply, constant_apply]
  rfl

end Host

section Tile

variable {n k w : ℕ} {φ₁ φ₂ : FTy}

/-- A kernel's spelling of the layer on a tile of `n` rows — two products into a zero accumulator, the one-row bias
    broadcast down the tile — read at entry `(p, q)` of the tile. -/
theorem tile_lin_at (d : DotDims ⟨2, ![n, k]⟩ ⟨2, ![k, w]⟩ ⟨2, ![n, w]⟩) (hd : d = DotDims.plain n k w)
    (p₁ p₂ : Option ContractPrecision) (hb : (⟨2, ![1, w]⟩ : Shape).Broadcasts ⟨2, ![n, w]⟩)
    (a x : FVec Ideal ⟨2, ![n, k]⟩ φ₁) (wl wr : FVec Ideal ⟨2, ![k, w]⟩ φ₂) (b : FVec Ideal ⟨2, ![1, w]⟩ .f32) (p : Fin n) (q : Fin w) :
    addf (addf (matmul d p₁ a wl (constant (F := Ideal) ⟨2, ![n, w]⟩ .f32 0x00000000#32)) (broadcastTo ⟨2, ![n, w]⟩ b hb))
      (matmul d p₂ x wr (constant (F := Ideal) ⟨2, ![n, w]⟩ .f32 0x00000000#32)) (ix2 p q)
      = ((∑ c : Fin k, a (ix2 p c) * wl (ix2 c q)) + b (ix2 (0 : Fin 1) q)) + ∑ c : Fin k, x (ix2 p c) * wr (ix2 c q) := by
  rw [addf_apply, addf_apply, PlainProduct.matmul_at d hd, PlainProduct.matmul_at d hd, broadcastTo_1b_ab_apply,
    constant_apply, Ideal.ofBits_zero_f32, zero_add, zero_add]

end Tile

section Mean

variable {n w : ℕ}

/-- The sum of messages times the reciprocal of the clamped degree is the sum divided by the clamped degree. -/
theorem mul_recip_eq_div (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, w]⟩ ![0, 1])
    (s : FVec Ideal ⟨2, ![n, w]⟩ .f32) (deg : FVec Ideal ⟨1, ![n]⟩ .f32) :
    mulf s (broadcastInDim ⟨2, ![n, w]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf deg (broadcastInDim ⟨1, ![n]⟩ ![] h0 (constant (F := Ideal) ⟨0, ![]⟩ .f32 0x3F800000#32))))))
      = Host.divf s (broadcastInDim ⟨2, ![n, w]⟩ ![0, 1] h2 (broadcastInDim ⟨2, ![n, 1]⟩ ![0] h1
          (maximumf deg (broadcastInDim ⟨1, ![n]⟩ ![] h0 (constant (F := Ideal) ⟨0, ![]⟩ .f32 0x3F800000#32))))) := by
  funext i
  rw [mulf_apply, hostDivf_apply]
  unfold broadcastInDim
  rw [hostDivf_apply, maximumf_apply]
  simp only [constant_apply, Ideal.ofBits_one_f32]
  exact Ideal.mul_one_div (ne_of_gt (lt_of_lt_of_le zero_lt_one (le_max_right _ _)))

end Mean

end SageLayer

end
-- ==== Proof.Region0.lean ====
import proofs.«114954_j10299331576571_1_alg».proof.Proof.Gen.KernelIdeal.Frame
import proofs.«114954_j10299331576571_1_alg».proof.Proof.LibSageLayer

/-!
# Region 0: the array its write-backs leave, as one function of the arrays it finds

The region runs the layer's body on 25 tiles of 2000 node rows. At grid point `t` the two row-tiled inputs hold rows
`2000 t … 2000 t + 1999` of the aggregated features and of the node features, the three weight and bias windows hold
their whole arrays, and the body stores the layer's rows for that tile: two products into a zero accumulator, the
bias row added between them, the maximum with zero last. Entry `(p, q)` of the tile is therefore entry `(2000 t + p, q)` of
`SageLayer.hidden` of the whole arrays; the 25 tiles cover all 50000 rows (row `r` lies in tile `r / 2000`), so after
the write-backs the output array is that function of the arrays the region was entered with.
-/

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin0 : (![0, 0] : Fin 2 → Nat) = fun _ => 0 := funext fun a => by fin_cases a <;> rfl

/-! ## The body's stored value -/

/-- The stored value is the layer's tile expression of the five loaded blocks: the changes of float format are the
    identity on the extended reals and the two casts are to the same shape. -/
theorem pay0_eq (v0 v3 : FVec Ideal S2000x96 .f32) (v5 v7 : FVec Ideal S96x256 .f32) (v10 : FVec Ideal S1x256 .f32) :
    k0_pay1 (F := Ideal) v0 v3 v5 v7 v10
      = maximumf (addf (addf (matmul dot_S2000x96_S96x256_S2000x256_1_0_0_1_n_n none v0 v5 (constant S2000x256 .f32 0x00000000#32))
          (broadcastTo S2000x256 v10 broadcasts_S1x256_S2000x256))
        (matmul dot_S2000x96_S96x256_S2000x256_1_0_0_1_n_n none v3 v7 (constant S2000x256 .f32 0x00000000#32)))
      (broadcast S2000x256 (Scalar.ofBits .f32 0x00000000#32)) := by
  unfold k0_pay1
  simp only [shapeCast_self]
  rfl

/-- The stored value at entry `(p, q)` of the tile. -/
theorem pay0_at (v0 v3 : FVec Ideal S2000x96 .f32) (v5 v7 : FVec Ideal S96x256 .f32) (v10 : FVec Ideal S1x256 .f32)
    (p : Fin 2000) (q : Fin 256) :
    k0_pay1 (F := Ideal) v0 v3 v5 v7 v10 (ix2 p q)
      = max (((∑ c : Fin 96, v0 (ix2 p c) * v5 (ix2 c q)) + v10 (ix2 (0 : Fin 1) q)) + ∑ c : Fin 96, v3 (ix2 p c) * v7 (ix2 c q))
        (Ideal.ofBits .f32 0x00000000#32) := by
  rw [pay0_eq]
  refine (maximumf_apply _ _ _).trans (congrArg₂ max ?_ rfl)
  exact SageLayer.tile_lin_at dot_S2000x96_S96x256_S2000x256_1_0_0_1_n_n rfl none none broadcasts_S1x256_S2000x256 v0 v3 v5 v7 v10 p q

/-! ## Where each window's block sits in its array -/

/-- The printed index maps over the grid: the three row-tiled windows are at block row `t`, column block 0; the three
    whole windows at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row0_lt (t : Fin cfg0.N) (p : Fin 2000) : t.val * 2000 + p.val < 50000 := by
  have h : t.val < 25 := lt_of_lt_of_eq t.isLt N_0
  have := p.isLt
  omega

/-- Row `p` of tile `t` as a row of the whole array. -/
def row0 (t : Fin cfg0.N) (p : Fin 2000) : Fin 50000 := ⟨t.val * 2000 + p.val, row0_lt t p⟩

theorem read0_0 (c : Dev nD) (t : Fin cfg0.N) (p : Fin 2000) (k : Fin 96) :
    iblk0 V c 0 t (ix2 p k) = V c main_v24 (ix2 (row0 t p) k) := by
  show V c main_v24 (((cfg0.win 0).blk t).view.emb (ix2 p k)) = _
  refine congrArg (V c main_v24) (funext fun a => Fin.ext ?_)
  obtain ⟨e0, e1, -⟩ := index0 t
  match a with
  | ⟨0, _⟩ => show win0_0.index t (0 : Fin 2) * 2000 + 1 * p.val = t.val * 2000 + p.val; rw [e0]; omega
  | ⟨1, _⟩ => show win0_0.index t (1 : Fin 2) * 96 + 1 * k.val = k.val; rw [e1]; omega

theorem read0_1 (c : Dev nD) (t : Fin cfg0.N) (p : Fin 2000) (k : Fin 96) :
    iblk0 V c 1 t (ix2 p k) = V c main_arg0 (ix2 (row0 t p) k) := by
  show V c main_arg0 (((cfg0.win 1).blk t).view.emb (ix2 p k)) = _
  refine congrArg (V c main_arg0) (funext fun a => Fin.ext ?_)
  obtain ⟨-, -, e0, e1, -⟩ := index0 t
  match a with
  | ⟨0, _⟩ => show win0_1.index t (0 : Fin 2) * 2000 + 1 * p.val = t.val * 2000 + p.val; rw [e0]; omega
  | ⟨1, _⟩ => show win0_1.index t (1 : Fin 2) * 96 + 1 * k.val = k.val; rw [e1]; omega

theorem read0_2 (c : Dev nD) (t : Fin cfg0.N) (k : Fin 96) (q : Fin 256) :
    iblk0 V c 2 t (ix2 k q) = V c main_arg1 (ix2 k q) := by
  show V c main_arg1 (((cfg0.win 2).blk t).view.emb (ix2 k q)) = _
  refine congrArg (V c main_arg1) (funext fun a => Fin.ext ?_)
  obtain ⟨-, -, -, -, e0, e1, -⟩ := index0 t
  match a with
  | ⟨0, _⟩ => show win0_2.index t (0 : Fin 2) * 96 + 1 * k.val = k.val; rw [e0]; omega
  | ⟨1, _⟩ => show win0_2.index t (1 : Fin 2) * 256 + 1 * q.val = q.val; rw [e1]; omega

theorem read0_3 (c : Dev nD) (t : Fin cfg0.N) (q : Fin 256) :
    iblk0 V c 3 t (ix2 (0 : Fin 1) q) = V c main_v25 (ix2 (0 : Fin 1) q) := by
  show V c main_v25 (((cfg0.win 3).blk t).view.emb (ix2 (0 : Fin 1) q)) = _
  refine congrArg (V c main_v25) (funext fun a => Fin.ext ?_)
  obtain ⟨-, -, -, -, -, -, e0, e1, -⟩ := index0 t
  match a with
  | ⟨0, _⟩ => show win0_3.index t (0 : Fin 2) * 1 + 1 * 0 = 0; rw [e0]
  | ⟨1, _⟩ => show win0_3.index t (1 : Fin 2) * 256 + 1 * q.val = q.val; rw [e1]; omega

theorem read0_4 (c : Dev nD) (t : Fin cfg0.N) (k : Fin 96) (q : Fin 256) :
    iblk0 V c 4 t (ix2 k q) = V c main_arg3 (ix2 k q) := by
  show V c main_arg3 (((cfg0.win 4).blk t).view.emb (ix2 k q)) = _
  refine congrArg (V c main_arg3) (funext fun a => Fin.ext ?_)
  obtain ⟨-, -, -, -, -, -, -, -, e0, e1, -⟩ := index0 t
  match a with
  | ⟨0, _⟩ => show win0_4.index t (0 : Fin 2) * 96 + 1 * k.val = k.val; rw [e0]; omega
  | ⟨1, _⟩ => show win0_4.index t (1 : Fin 2) * 256 + 1 * q.val = q.val; rw [e1]; omega

/-- Entry `(p, q)` of the output tile at point `t` is entry `(2000 t + p, q)` of the output array. -/
theorem place0 (t : Fin cfg0.N) (p : Fin 2000) (q : Fin 256) :
    ((cfg0.win 5).blk t).view.emb (ix2 p q) = ix2 (row0 t p) q := by
  refine funext fun a => Fin.ext ?_
  obtain ⟨-, -, -, -, -, -, -, -, -, -, e0, e1⟩ := index0 t
  match a with
  | ⟨0, _⟩ => show win0_5.index t (0 : Fin 2) * 2000 + 1 * p.val = t.val * 2000 + p.val; rw [e0]; omega
  | ⟨1, _⟩ => show win0_5.index t (1 : Fin 2) * 256 + 1 * q.val = q.val; rw [e1]; omega

/-! ## What a point writes back, the cover, the array -/

/-- The layer of the arrays the region finds. -/
abbrev layer0 (c : Dev nD) : S50000x256.Idx → EReal :=
  SageLayer.hidden (Ideal.ofBits .f32 0x00000000#32) (V c main_v24) (V c main_arg0) (V c main_arg1) (V c main_arg3) (fun j => V c main_v25 (ix2 (0 : Fin 1) j))

/-- What point `t` writes back is its tile of the layer of the whole arrays. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero origin0]
  simp only [View.ld_unit_zero (S := S2000x96) origin0, View.ld_unit_zero (S := S96x256) origin0, View.ld_unit_zero (S := S1x256) origin0]
  funext j
  obtain ⟨p, q, rfl⟩ : ∃ (p : Fin 2000) (q : Fin 256), j = ix2 p q := ⟨j 0, j 1, eq_ix2 j⟩
  refine (pay0_at _ _ _ _ _ p q).trans ?_
  show _ = layer0 V c (((cfg0.win 5).blk t).view.emb (ix2 p q))
  rw [place0 t p q]
  unfold layer0
  rw [SageLayer.hidden_at]
  refine congrArg₂ max (congrArg₂ (· + ·) (congrArg₂ (· + ·)
      (Finset.sum_congr rfl fun k _ => congrArg₂ (· * ·) (read0_0 V c t p k) (read0_2 V c t k q))
      (read0_3 V c t q))
    (Finset.sum_congr rfl fun k _ => congrArg₂ (· * ·) (read0_1 V c t p k) (read0_4 V c t k q))) rfl

/-- An index of the output array is in point `t`'s tile iff each coordinate is in the tile's range. -/
theorem mem_tile0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- Every index of the output array is in the tile of the point its row falls in. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_5 _, ?_⟩
  rw [mem_tile0]
  obtain ⟨-, -, -, -, -, -, -, -, -, -, e0, e1⟩ := index0 ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 256 ≤ (i 1).val ∧ (i 1).val < win0_5.index _ (1 : Fin 2) * 256 + 256
    rw [e1]; omega

/-- After the region's write-backs its output array is the layer of the arrays it was entered with. -/
theorem final0 (c : Dev nD) : (dat0 V c).arrAt 5 cfg0.N = layer0 V c :=
  (dat0 V c).arrAt_eq_of_cover 5 (layer0 V c) (fun t _ => flushed0 V c t) (cover0)

end Cert.KernelIdeal.Whole

end
-- ==== Proof.Region1.lean ====
import proofs.«114954_j10299331576571_1_alg».proof.Proof.Gen.KernelIdeal.Frame
import proofs.«114954_j10299331576571_1_alg».proof.Proof.LibSageLayer

/-!
# Region 1: the array its write-backs leave, as one function of the arrays it finds

The region runs the layer's body on 25 tiles of 2000 node rows. At grid point `t` the two row-tiled inputs hold rows
`2000 t … 2000 t + 1999` of the aggregated features and of the node features, the three weight and bias windows hold
their whole arrays, and the body stores the layer's rows for that tile: two products into a zero accumulator, the
bias row added between them. Entry `(p, q)` of the tile is therefore entry `(2000 t + p, q)` of
`SageLayer.lin` of the whole arrays; the 25 tiles cover all 50000 rows (row `r` lies in tile `r / 2000`), so after
the write-backs the output array is that function of the arrays the region was entered with.
-/

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin1 : (![0, 0] : Fin 2 → Nat) = fun _ => 0 := funext fun a => by fin_cases a <;> rfl

/-! ## The body's stored value -/

/-- The stored value is the layer's tile expression of the five loaded blocks: the changes of float format are the
    identity on the extended reals and the two casts are to the same shape. -/
theorem pay1_eq (v0 v3 : FVec Ideal S2000x256 .f32) (v5 v7 : FVec Ideal S256x128 .f32) (v10 : FVec Ideal S1x128 .f32) :
    k1_pay1 (F := Ideal) v0 v3 v5 v7 v10
      = addf (addf (matmul dot_S2000x256_S256x128_S2000x128_1_0_0_1_n_n none v0 v5 (constant S2000x128 .f32 0x00000000#32))
          (broadcastTo S2000x128 v10 broadcasts_S1x128_S2000x128))
        (matmul dot_S2000x256_S256x128_S2000x128_1_0_0_1_n_n none v3 v7 (constant S2000x128 .f32 0x00000000#32)) := by
  unfold k1_pay1
  simp only [shapeCast_self]
  rfl

/-- The stored value at entry `(p, q)` of the tile. -/
theorem pay1_at (v0 v3 : FVec Ideal S2000x256 .f32) (v5 v7 : FVec Ideal S256x128 .f32) (v10 : FVec Ideal S1x128 .f32)
    (p : Fin 2000) (q : Fin 128) :
    k1_pay1 (F := Ideal) v0 v3 v5 v7 v10 (ix2 p q)
      = ((∑ c : Fin 256, v0 (ix2 p c) * v5 (ix2 c q)) + v10 (ix2 (0 : Fin 1) q)) + ∑ c : Fin 256, v3 (ix2 p c) * v7 (ix2 c q) := by
  rw [pay1_eq]
  exact SageLayer.tile_lin_at dot_S2000x256_S256x128_S2000x128_1_0_0_1_n_n rfl none none broadcasts_S1x128_S2000x128 v0 v3 v5 v7 v10 p q

/-! ## Where each window's block sits in its array -/

/-- The printed index maps over the grid: the three row-tiled windows are at block row `t`, column block 0; the three
    whole windows at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row1_lt (t : Fin cfg1.N) (p : Fin 2000) : t.val * 2000 + p.val < 50000 := by
  have h : t.val < 25 := lt_of_lt_of_eq t.isLt N_1
  have := p.isLt
  omega

/-- Row `p` of tile `t` as a row of the whole array. -/
def row1 (t : Fin cfg1.N) (p : Fin 2000) : Fin 50000 := ⟨t.val * 2000 + p.val, row1_lt t p⟩

theorem read1_0 (c : Dev nD) (t : Fin cfg1.N) (p : Fin 2000) (k : Fin 256) :
    iblk1 V c 0 t (ix2 p k) = V c main_v39 (ix2 (row1 t p) k) := by
  show V c main_v39 (((cfg1.win 0).blk t).view.emb (ix2 p k)) = _
  refine congrArg (V c main_v39) (funext fun a => Fin.ext ?_)
  obtain ⟨e0, e1, -⟩ := index1 t
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem read1_1 (c : Dev nD) (t : Fin cfg1.N) (p : Fin 2000) (k : Fin 256) :
    iblk1 V c 1 t (ix2 p k) = V c main_v26 (ix2 (row1 t p) k) := by
  show V c main_v26 (((cfg1.win 1).blk t).view.emb (ix2 p k)) = _
  refine congrArg (V c main_v26) (funext fun a => Fin.ext ?_)
  obtain ⟨-, -, e0, e1, -⟩ := index1 t
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

theorem read1_2 (c : Dev nD) (t : Fin cfg1.N) (k : Fin 256) (q : Fin 128) :
    iblk1 V c 2 t (ix2 k q) = V c main_arg4 (ix2 k q) := by
  show V c main_arg4 (((cfg1.win 2).blk t).view.emb (ix2 k q)) = _
  refine congrArg (V c main_arg4) (funext fun a => Fin.ext ?_)
  obtain ⟨-, -, -, -, e0, e1, -⟩ := index1 t
  match a with
  | ⟨0, _⟩ => show win1_2.index t (0 : Fin 2) * 256 + 1 * k.val = k.val; rw [e0]; omega
  | ⟨1, _⟩ => show win1_2.index t (1 : Fin 2) * 128 + 1 * q.val = q.val; rw [e1]; omega

theorem read1_3 (c : Dev nD) (t : Fin cfg1.N) (q : Fin 128) :
    iblk1 V c 3 t (ix2 (0 : Fin 1) q) = V c main_v40 (ix2 (0 : Fin 1) q) := by
  show V c main_v40 (((cfg1.win 3).blk t).view.emb (ix2 (0 : Fin 1) q)) = _
  refine congrArg (V c main_v40) (funext fun a => Fin.ext ?_)
  obtain ⟨-, -, -, -, -, -, e0, e1, -⟩ := index1 t
  match a with
  | ⟨0, _⟩ => show win1_3.index t (0 : Fin 2) * 1 + 1 * 0 = 0; rw [e0]
  | ⟨1, _⟩ => show win1_3.index t (1 : Fin 2) * 128 + 1 * q.val = q.val; rw [e1]; omega

theorem read1_4 (c : Dev nD) (t : Fin cfg1.N) (k : Fin 256) (q : Fin 128) :
    iblk1 V c 4 t (ix2 k q) = V c main_arg6 (ix2 k q) := by
  show V c main_arg6 (((cfg1.win 4).blk t).view.emb (ix2 k q)) = _
  refine congrArg (V c main_arg6) (funext fun a => Fin.ext ?_)
  obtain ⟨-, -, -, -, -, -, -, -, e0, e1, -⟩ := index1 t
  match a with
  | ⟨0, _⟩ => show win1_4.index t (0 : Fin 2) * 256 + 1 * k.val = k.val; rw [e0]; omega
  | ⟨1, _⟩ => show win1_4.index t (1 : Fin 2) * 128 + 1 * q.val = q.val; rw [e1]; omega

/-- Entry `(p, q)` of the output tile at point `t` is entry `(2000 t + p, q)` of the output array. -/
theorem place1 (t : Fin cfg1.N) (p : Fin 2000) (q : Fin 128) :
    ((cfg1.win 5).blk t).view.emb (ix2 p q) = ix2 (row1 t p) q := by
  refine funext fun a => Fin.ext ?_
  obtain ⟨-, -, -, -, -, -, -, -, -, -, e0, e1⟩ := index1 t
  match a with
  | ⟨0, _⟩ => show win1_5.index t (0 : Fin 2) * 2000 + 1 * p.val = t.val * 2000 + p.val; rw [e0]; omega
  | ⟨1, _⟩ => show win1_5.index t (1 : Fin 2) * 128 + 1 * q.val = q.val; rw [e1]; omega

/-! ## What a point writes back, the cover, the array -/

/-- The layer of the arrays the region finds. -/
abbrev layer1 (c : Dev nD) : S50000x128.Idx → EReal :=
  SageLayer.lin (V c main_v39) (V c main_v26) (V c main_arg4) (V c main_arg6) (fun j => V c main_v40 (ix2 (0 : Fin 1) j))

/-- What point `t` writes back is its tile of the layer of the whole arrays. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero origin1]
  simp only [View.ld_unit_zero (S := S2000x256) origin1, View.ld_unit_zero (S := S256x128) origin1, View.ld_unit_zero (S := S1x128) origin1]
  funext j
  obtain ⟨p, q, rfl⟩ : ∃ (p : Fin 2000) (q : Fin 128), j = ix2 p q := ⟨j 0, j 1, eq_ix2 j⟩
  refine (pay1_at _ _ _ _ _ p q).trans ?_
  show _ = layer1 V c (((cfg1.win 5).blk t).view.emb (ix2 p q))
  rw [place1 t p q]
  unfold layer1
  rw [SageLayer.lin_at]
  refine congrArg₂ (· + ·) (congrArg₂ (· + ·)
      (Finset.sum_congr rfl fun k _ => congrArg₂ (· * ·) (read1_0 V c t p k) (read1_2 V c t k q))
      (read1_3 V c t q))
    (Finset.sum_congr rfl fun k _ => congrArg₂ (· * ·) (read1_1 V c t p k) (read1_4 V c t k q))

/-- An index of the output array is in point `t`'s tile iff each coordinate is in the tile's range. -/
theorem mem_tile1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v41).slice (win1_5.rect t)).set ↔ _
  rw [View.set_slice_whole, Rect.mem_set_unit]
  exact Iff.rfl

/-- Every index of the output array is in the tile of the point its row falls in. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  rw [mem_tile1]
  obtain ⟨-, -, -, -, -, -, -, -, -, -, e0, e1⟩ := index1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- After the region's write-backs its output array is the layer of the arrays it was entered with. -/
theorem final1 (c : Dev nD) : (dat1 V c).arrAt 5 cfg1.N = layer1 V c :=
  (dat1 V c).arrAt_eq_of_cover 5 (layer1 V c) (fun t _ => flushed1 V c t) (cover1)

end Cert.KernelIdeal.Whole

end
-- ==== Proof.RefLayers.lean ====
import proofs.«114954_j10299331576571_1_alg».proof.Proof.Gen.ReferenceIdeal.Read
import proofs.«114954_j10299331576571_1_alg».proof.Proof.LibSageLayer

/-!
# The reference's two layers as `SageLayer.hidden` and `SageLayer.lin`

The reference computes each layer on the whole arrays: a `dot_general` of the mean-aggregated features with the left
weights, the bias broadcast along the rows and added, a second `dot_general` of the layer's input with the right weights
added, and after the first layer the maximum with zero. Read one operation at a time, its hidden array
(`val_main_v29`) is `SageLayer.hidden` of the first aggregate (`val_main_v22`) and the node features, and its result
(`val_main_v54`) is `SageLayer.lin` of the second aggregate (`val_main_v48`) and the hidden array.
-/

noncomputable section

namespace Cert.ReferenceIdeal.Layers

open Cert.ReferenceIdeal Cert.ReferenceIdeal.Read Idealize.ShloMosaic Idealize.ShloMosaic.ValueIdx

variable (x0 : FVec Ideal S50000x96 .f32) (x1 : FVec Ideal S96x256 .f32) (x2 : FVec Ideal S256 .f32) (x3 : FVec Ideal S96x256 .f32)
  (x4 : FVec Ideal S256x128 .f32) (x5 : FVec Ideal S128 .f32) (x6 : FVec Ideal S256x128 .f32) (x7 : IVec S2x800000 32)

/-- The reference's hidden array. -/
theorem hidden_eq :
    val_main_v29 (F := Ideal) x0 x1 x2 x3 x7
      = SageLayer.hidden (Ideal.ofBits .f32 0x00000000#32) (val_main_v22 (F := Ideal) x0 x7) x0 x1 x3 (fun j => x2 (ix1 j)) := by
  unfold val_main_v29 val_main_v28 val_main_v26 val_main_v27 val_main_v23 val_main_v25 val_main_v24 val_main_call0_v0 val_main_call0_cst
  exact SageLayer.host_hidden _ rfl none none _ _ _ 0x00000000#32 _ _ _ _ _

/-- The reference's result. -/
theorem result_eq :
    val_main_v54 (F := Ideal) x0 x1 x2 x3 x4 x5 x6 x7
      = SageLayer.lin (val_main_v48 (F := Ideal) x0 x1 x2 x3 x7) (val_main_v29 (F := Ideal) x0 x1 x2 x3 x7) x4 x6 (fun j => x5 (ix1 j)) := by
  unfold val_main_v54 val_main_v52 val_main_v53 val_main_v49 val_main_v51 val_main_v50
  exact SageLayer.host_lin _ rfl none none _ _ _ _ _ _ _

end Cert.ReferenceIdeal.Layers

end
-- ==== Proof.KernelValue.lean ====
import proofs.«114954_j10299331576571_1_alg».proof.Proof.Gen.KernelIdeal.Frame
import proofs.«114954_j10299331576571_1_alg».proof.Proof.Gen.ReferenceIdeal.Read
import proofs.«114954_j10299331576571_1_alg».proof.Proof.LibSageLayer
import proofs.«114954_j10299331576571_1_alg».proof.Proof.Region0
import proofs.«114954_j10299331576571_1_alg».proof.Proof.Region1
import proofs.«114954_j10299331576571_1_alg».proof.Proof.RefLayers
import Idealize.ShloMosaic.Lib.ValueLayout
import Idealize.ShloMosaic.Lib.StableHlo.Run

/-!
# The idealized kernel's result, read back through its four segments

The result buffer after the last region holds the second layer of the arrays that region was entered with. Those are
read back one segment at a time, down to the launch memory:

* after the first stretch of host operations the first region's aggregated-input array is the reference's first
  aggregate: the kernel multiplies the sum of messages by the reciprocal of the clamped degree where the reference divides
  by the clamped degree, one function on the extended reals (`SageLayer.mul_recip_eq_div`); the gather and the scatters
  are the same operations applied to the same arrays on both sides and are never opened;
* the first region leaves the hidden layer of those arrays, which is the reference's hidden array;
* after the second stretch the second region's aggregated-input array is, by the same law, the reference's second
  aggregate of that hidden array;
* the second region leaves the second layer, which is the reference's result.

So the kernel's result is the reference's own composed term `val_main_v54` of the eight launched arguments.
-/

set_option maxRecDepth 16384
set_option quotPrecheck false

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)

/-! ## After the first stretch of host operations -/

theorem v1_arg0 : V1 m ρ c main_arg0 = x0 := by
  show StableHlo.after hostOps0 (W0 m ρ c) (Proc.devRef .tc main_arg0) = _
  after_results_simp
theorem v1_arg1 : V1 m ρ c main_arg1 = x1 := by
  show StableHlo.after hostOps0 (W0 m ρ c) (Proc.devRef .tc main_arg1) = _
  after_results_simp
theorem v1_arg3 : V1 m ρ c main_arg3 = x3 := by
  show StableHlo.after hostOps0 (W0 m ρ c) (Proc.devRef .tc main_arg3) = _
  after_results_simp
theorem w1_arg4 : W1 m ρ c (Proc.devRef .tc main_arg4) = x4 := by
  show StableHlo.after hostOps0 (W0 m ρ c) (Proc.devRef .tc main_arg4) = _
  after_results_simp
theorem w1_arg5 : W1 m ρ c (Proc.devRef .tc main_arg5) = x5 := by
  show StableHlo.after hostOps0 (W0 m ρ c) (Proc.devRef .tc main_arg5) = _
  after_results_simp
theorem w1_arg6 : W1 m ρ c (Proc.devRef .tc main_arg6) = x6 := by
  show StableHlo.after hostOps0 (W0 m ρ c) (Proc.devRef .tc main_arg6) = _
  after_results_simp

/-- The bias of the first layer, cast to one row. -/
theorem v1_bias : (V1 m ρ c main_v25 : S1x256.Idx → EReal) = shapeCast S1x256 x2 shapeCasts_S256_S1x256 := by
  show StableHlo.after hostOps0 (W0 m ρ c) (Proc.devRef .tc main_v25) = _
  after_results_simp
  rfl

/-- The edges' source nodes and destination nodes. -/
theorem w1_src : (W1 m ρ c (Proc.devRef .tc main_v1) : S800000.Idx → BitVec 32) = Cert.ReferenceIdeal.Read.val_main_v1 (F := Ideal) x7 := by
  show StableHlo.after hostOps0 (W0 m ρ c) (Proc.devRef .tc main_v1) = _
  after_results_simp
  rfl
theorem w1_dst : (W1 m ρ c (Proc.devRef .tc main_v3) : S800000.Idx → BitVec 32) = Cert.ReferenceIdeal.Read.val_main_v3 (F := Ideal) x7 := by
  show StableHlo.after hostOps0 (W0 m ρ c) (Proc.devRef .tc main_v3) = _
  after_results_simp
  rfl

/-- The reciprocal of the clamped degree: one over the maximum of the in-degree (the reference's `val_main_v17`) and one. -/
theorem w1_recip : (W1 m ρ c (Proc.devRef .tc main_v11) : S50000.Idx → EReal)
    = Host.divf (F := Ideal) (broadcastInDim S50000 ![] bcast_S_S50000 (constant (F := Ideal) S_ .f32 0x3F800000#32))
        (maximumf (Cert.ReferenceIdeal.Read.val_main_v17 (F := Ideal) x7) (broadcastInDim S50000 ![] bcast_S_S50000 (constant (F := Ideal) S_ .f32 0x3F800000#32))) := by
  show StableHlo.after hostOps0 (W0 m ρ c) (Proc.devRef .tc main_v11) = _
  after_results_simp
  rfl

set_option maxHeartbeats 1000000 in
/-- The first region's aggregated-input array is the reference's first aggregate. -/
theorem v1_agg : (V1 m ρ c main_v24 : S50000x96.Idx → EReal) = Cert.ReferenceIdeal.Read.val_main_v22 (F := Ideal) x0 x7 := by
  show StableHlo.after hostOps0 (W0 m ρ c) (Proc.devRef .tc main_v24) = _
  after_results_simp
  refine (SageLayer.mul_recip_eq_div _ _ _ _ _).trans ?_
  rfl

/-! ## After the first region -/

theorem bias_row256 (b : FVec Ideal S256 .f32) :
    (fun j : Fin 256 => shapeCast S1x256 b shapeCasts_S256_S1x256 (ix2 (0 : Fin 1) j)) = fun j => b (ix1 j) :=
  funext fun j => shapeCast_a_1a_apply b shapeCasts_S256_S1x256 (0 : Fin 1) j

theorem bias_row128 (b : FVec Ideal S128 .f32) :
    (fun j : Fin 128 => shapeCast S1x128 b shapeCasts_S128_S1x128 (ix2 (0 : Fin 1) j)) = fun j => b (ix1 j) :=
  funext fun j => shapeCast_a_1a_apply b shapeCasts_S128_S1x128 (0 : Fin 1) j

/-- The first region leaves the reference's hidden array. -/
theorem w2_hidden : (W2 m ρ c (Proc.devRef .tc main_v26) : S50000x256.Idx → EReal)
    = Cert.ReferenceIdeal.Read.val_main_v29 (F := Ideal) x0 x1 x2 x3 x7 := by
  refine (W2_arr m ρ c 5).trans ((final0 (V1 m ρ) c).trans ?_)
  show SageLayer.hidden _ (V1 m ρ c main_v24) (V1 m ρ c main_arg0) (V1 m ρ c main_arg1) (V1 m ρ c main_arg3)
    (fun j => V1 m ρ c main_v25 (ix2 (0 : Fin 1) j)) = _
  rw [v1_agg, v1_arg0, v1_arg1, v1_arg3, v1_bias, bias_row256]
  exact (Cert.ReferenceIdeal.Layers.hidden_eq x0 x1 x2 x3 x7).symm

/-! ## After the second stretch of host operations -/

theorem v3_hidden : (V3 m ρ c main_v26 : S50000x256.Idx → EReal) = Cert.ReferenceIdeal.Read.val_main_v29 (F := Ideal) x0 x1 x2 x3 x7 := by
  show StableHlo.after hostOps1 (W2 m ρ c) (Proc.devRef .tc main_v26) = _
  after_results_simp
  exact w2_hidden m ρ c
theorem v3_arg4 : V3 m ρ c main_arg4 = x4 := by
  show StableHlo.after hostOps1 (W2 m ρ c) (Proc.devRef .tc main_arg4) = _
  after_results_simp
  exact (W2_of_ne m ρ c main_arg4 (by decide)).trans (w1_arg4 m ρ c)
theorem v3_arg6 : V3 m ρ c main_arg6 = x6 := by
  show StableHlo.after hostOps1 (W2 m ρ c) (Proc.devRef .tc main_arg6) = _
  after_results_simp
  exact (W2_of_ne m ρ c main_arg6 (by decide)).trans (w1_arg6 m ρ c)
theorem v3_bias : (V3 m ρ c main_v40 : S1x128.Idx → EReal) = shapeCast S1x128 x5 shapeCasts_S128_S1x128 := by
  show StableHlo.after hostOps1 (W2 m ρ c) (Proc.devRef .tc main_v40) = _
  after_results_simp
  rw [W2_of_ne m ρ c main_arg5 (by decide), w1_arg5]
  rfl

set_option maxHeartbeats 1000000 in
/-- The second region's aggregated-input array is the reference's second aggregate. -/
theorem v3_agg : (V3 m ρ c main_v39 : S50000x256.Idx → EReal) = Cert.ReferenceIdeal.Read.val_main_v48 (F := Ideal) x0 x1 x2 x3 x7 := by
  show StableHlo.after hostOps1 (W2 m ρ c) (Proc.devRef .tc main_v39) = _
  after_results_simp
  rw [w2_hidden, W2_of_ne m ρ c main_v1 (by decide), W2_of_ne m ρ c main_v3 (by decide), W2_of_ne m ρ c main_v11 (by decide),
    w1_src, w1_dst, w1_recip]
  refine (SageLayer.mul_recip_eq_div _ _ _ _ _).trans ?_
  rfl

/-! ## After the second region -/

/-- The kernel's result is the reference's composed term of the launched arguments. -/
theorem result_eq : (W4 m ρ c (Proc.devRef .tc main_v41) : S50000x128.Idx → EReal)
    = Cert.ReferenceIdeal.Read.val_main_v54 (F := Ideal) x0 x1 x2 x3 x4 x5 x6 x7 := by
  refine (W4_arr m ρ c 5).trans ((final1 (V3 m ρ) c).trans ?_)
  show SageLayer.lin (V3 m ρ c main_v39) (V3 m ρ c main_v26) (V3 m ρ c main_arg4) (V3 m ρ c main_arg6)
    (fun j => V3 m ρ c main_v40 (ix2 (0 : Fin 1) j)) = _
  rw [v3_agg, v3_hidden, v3_arg4, v3_arg6, v3_bias, bias_row128]
  exact (Cert.ReferenceIdeal.Layers.result_eq x0 x1 x2 x3 x4 x5 x6 x7).symm

end Cert.KernelIdeal.Whole

end
-- ==== Proof.lean ====
/-
  A two-layer graph-convolution encoder (mean aggregation over incoming edges, then a linear layer with bias on the
  aggregate plus a linear layer on the node's own features; a maximum with zero after the first layer), as a kernel
  against its reference, over the extended reals.

  Both programs gather the source rows along the 800000 edges and scatter-add them into the destination rows with the
  same host operations on the same arrays. They differ in two places. The reference divides the sum of messages by the
  in-degree clamped below by one, the kernel multiplies it by the reciprocal of that number computed once: the clamped
  degree is at least one on every extended real, so it is not zero, and off zero the quotient is the product with the
  inverse; no input need be finite for this. And the reference computes each layer's two matrix products on the whole
  50000-row arrays while the kernel computes them tile by tile, 2000 rows a tile, in a pipelined region per layer, with
  the operands rounded to a shorter float format on the way into the products, which on the extended reals is the identity:
  row `r` of the layer depends on row `r` of the two inputs only, the 25 tiles cover all rows, and a product into a zero
  accumulator is the plain sum over the contracted axis on both sides.

  The modules: `LibPlainProduct` and `LibSageLayer` (the layer as one function of its arrays; the host's and a tile's
  spelling of it; the mean-by-reciprocal law), `KernelRun` (the kernel's run with its result named), `Region0` and
  `Region1` (each region's output array as the layer of the arrays it finds), `RefLayers` (the reference's two layers
  read the same way), `KernelValue` (the kernel's result read back through both regions and both stretches of host
  operations: it is the reference's own composed term of the arguments). The ideal pass rewrote nothing, so the
  idealization claim is trivial.
-/
import proofs.«114954_j10299331576571_1_alg».proof.Defs
import proofs.«114954_j10299331576571_1_alg».proof.Proof.Gen.Kernel
import proofs.«114954_j10299331576571_1_alg».proof.Proof.Gen.Kernel.Skeleton
import proofs.«114954_j10299331576571_1_alg».proof.Proof.Gen.Kernel.Launch
import proofs.«114954_j10299331576571_1_alg».proof.Proof.Gen.Kernel.Points
import proofs.«114954_j10299331576571_1_alg».proof.Proof.Gen.Kernel.Frame
import proofs.«114954_j10299331576571_1_alg».proof.Proof.Gen.KernelIdeal
import proofs.«114954_j10299331576571_1_alg».proof.Proof.Gen.KernelIdeal.Skeleton
import proofs.«114954_j10299331576571_1_alg».proof.Proof.Gen.KernelIdeal.Launch
import proofs.«114954_j10299331576571_1_alg».proof.Proof.Gen.KernelIdeal.Points
import proofs.«114954_j10299331576571_1_alg».proof.Proof.Gen.KernelIdeal.Frame
import proofs.«114954_j10299331576571_1_alg».proof.Proof.Gen.ReferenceIdeal
import proofs.«114954_j10299331576571_1_alg».proof.Proof.Gen.Pre_finite_inputs
import proofs.«114954_j10299331576571_1_alg».proof.Proof.Gen.ReferenceIdeal.Run
import proofs.«114954_j10299331576571_1_alg».proof.Proof.Gen.ReferenceIdeal.Read
import proofs.«114954_j10299331576571_1_alg».proof.Proof.KernelRun
import proofs.«114954_j10299331576571_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the reference's composed term of the kernel's launched arguments in the result buffer: the kernel's
    by `Cert.KernelIdeal.Whole.result_eq`, the reference's by its generated run, its arguments agreeing with the kernel's. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
